-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S40000x128 .f32) (main_arg1 : IVec S640000 32) (main_arg2 : IVec S640000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S4000x128 : Shape := ⟨2, ![4000, 128]⟩

abbrev nBuf : Space → Nat
  | .hbm => 63
  | .vmem => 18
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000x128, .f32⟩
  | .hbm, ⟨20, _⟩ => ⟨S640000x1, .i32⟩
  | .hbm, ⟨21, _⟩ => ⟨S40000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S40000, .f32⟩
  | .hbm, ⟨26, _⟩ => ⟨S640000x1, .i32⟩
  | .hbm, ⟨27, _⟩ => ⟨S40000, .f32⟩
  | .hbm, ⟨28, _⟩ => ⟨S_, .f32⟩
  | .hbm, ⟨29, _⟩ => ⟨S40000, .f32⟩
  | .hbm, ⟨30, _⟩ => ⟨S40000, .f32⟩
  | .hbm, ⟨31, _⟩ => ⟨S40000x1, .f32⟩
  | .hbm, ⟨32, _⟩ => ⟨S40000x128, .f32⟩
  | .hbm, ⟨33, _⟩ => ⟨S40000x128, .f32⟩
  | .hbm, ⟨34, _⟩ => ⟨S1x128, .f32⟩
  | .hbm, ⟨35, _⟩ => ⟨S40000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S40000x128, .f32⟩
  | .hbm, ⟨47, _⟩ => ⟨S640000x1, .i32⟩
  | .hbm, ⟨48, _⟩ => ⟨S40000x128, .f32⟩
  | .hbm, ⟨49, _⟩ => ⟨S_, .f32⟩
  | .hbm, ⟨50, _⟩ => ⟨S640000, .f32⟩
  | .hbm, ⟨51, _⟩ => ⟨S_, .f32⟩
  | .hbm, ⟨52, _⟩ => ⟨S40000, .f32⟩
  | .hbm, ⟨53, _⟩ => ⟨S640000x1, .i32⟩
  | .hbm, ⟨54, _⟩ => ⟨S40000, .f32⟩
  | .hbm, ⟨55, _⟩ => ⟨S_, .f32⟩
  | .hbm, ⟨56, _⟩ => ⟨S40000, .f32⟩
  | .hbm, ⟨57, _⟩ => ⟨S40000, .f32⟩
  | .hbm, ⟨58, _⟩ => ⟨S40000x1, .f32⟩
  | .hbm, ⟨59, _⟩ => ⟨S40000x128, .f32⟩
  | .hbm, ⟨60, _⟩ => ⟨S40000x128, .f32⟩
  | .hbm, ⟨61, _⟩ => ⟨S1x128, .f32⟩
  | .hbm, ⟨62, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S40000x128.size a
  hwx1_5 : ∀ i : grid1.Coords, EltTy.bits .f32 = 32 ∨ (Rect.block (s := S40000x128) S4000x128.size (cc1_transform_5 i) (hinb1_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000x128, .f32⟩
  | .hbm, ⟨20, _⟩ => ⟨S640000x1, .i32⟩
  | .hbm, ⟨21, _⟩ => ⟨S40000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S40000, .f32⟩
  | .hbm, ⟨26, _⟩ => ⟨S640000x1, .i32⟩
  | .hbm, ⟨27, _⟩ => ⟨S40000, .f32⟩
  | .hbm, ⟨28, _⟩ => ⟨S_, .f32⟩
  | .hbm, ⟨29, _⟩ => ⟨S40000, .f32⟩
  | .hbm, ⟨30, _⟩ => ⟨S40000, .f32⟩
  | .hbm, ⟨31, _⟩ => ⟨S40000x1, .f32⟩
  | .hbm, ⟨32, _⟩ => ⟨S40000x128, .f32⟩
  | .hbm, ⟨33, _⟩ => ⟨S40000x128, .f32⟩
  | .hbm, ⟨34, _⟩ => ⟨S40000x128, .f32⟩
  | .hbm, ⟨35, _⟩ => ⟨S40000x128, .f32⟩
  | .hbm, ⟨36, _⟩ => ⟨S40000x128, .f32⟩
  | .hbm, ⟨37, _⟩ => ⟨S1x128, .f32⟩
  | .hbm, ⟨38, _⟩ => ⟨S40000x128, .f32⟩
  | .hbm, ⟨39, _⟩ => ⟨S40000x128, .f32⟩
  | .hbm, ⟨40, _⟩ => ⟨S_, .f32⟩
  | .hbm, ⟨41, _⟩ => ⟨S40000x128, .f32⟩
  | .hbm, ⟨42, _⟩ => ⟨S40000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S40000x128, .f32⟩
  | .hbm, ⟨54, _⟩ => ⟨S640000x1, .i32⟩
  | .hbm, ⟨55, _⟩ => ⟨S40000x128, .f32⟩
  | .hbm, ⟨56, _⟩ => ⟨S_, .f32⟩
  | .hbm, ⟨57, _⟩ => ⟨S640000, .f32⟩
  | .hbm, ⟨58, _⟩ => ⟨S_, .f32⟩
  | .hbm, ⟨59, _⟩ => ⟨S40000, .f32⟩
  | .hbm, ⟨60, _⟩ => ⟨S640000x1, .i32⟩
  | .hbm, ⟨61, _⟩ => ⟨S40000, .f32⟩
  | .hbm, ⟨62, _⟩ => ⟨S_, .f32⟩
  | .hbm, ⟨63, _⟩ => ⟨S40000, .f32⟩
  | .hbm, ⟨64, _⟩ => ⟨S40000, .f32⟩
  | .hbm, ⟨65, _⟩ => ⟨S40000x1, .f32⟩
  | .hbm, ⟨66, _⟩ => ⟨S40000x128, .f32⟩
  | .hbm, ⟨67, _⟩ => ⟨S40000x128, .f32⟩
  | .hbm, ⟨68, _⟩ => ⟨S40000x128, .f32⟩
  | .hbm, ⟨69, _⟩ => ⟨S40000x128, .f32⟩
  | .hbm, ⟨70, _⟩ => ⟨S40000x128, .f32⟩
  | .hbm, ⟨71, _⟩ => ⟨S1x128, .f32⟩
  | .hbm, ⟨72, _⟩ => ⟨S40000x128, .f32⟩
  | .hbm, ⟨73, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Sage.lean ====
/-
  The mathematics both programs compute, stated once over the reference's own host operations.

  A graph has 40000 nodes with 128 features each and 640000 directed edges (src → dst).  One layer is
    * the NEIGHBOUR MEAN  `meanAgg h`: row n is the sum of the rows h[src e] over the edges e with dst e = n, divided by
      max(number of such edges, 1) — as jnp writes it: a gather, a scatter-add into zeros, a scatter-add of ones for the
      degree, a maximum with 1, a quotient;
    * the NODE UPDATE  `update h mean Ws Wn b`: h · Ws + mean · Wn + b, the bias added to every row.
  The network is two layers with a rectifier (maximum with 0) between them:
      G = update H (meanAgg H) W₆ W₇ b₈,   H = relu (update x (meanAgg x) W₃ W₄ b₅).
  The reference's run ends holding exactly this composed term (`res_eq`, by unfolding).  Read at an entry (r, j) the
  node update is two 128-term sums and the bias entry (`update_apply`), and the rectifier is a maximum with the zero
  word's value (`relu_apply`): the forms the kernels' blocks are compared with.
-/
import proofs.«143257_j20976620274055_1_alg».proof.Proof.Gen.ReferenceIdeal.Read

noncomputable section

namespace Cert.Sage

open Cert.ReferenceIdeal Cert.ReferenceIdeal.Gen
open Idealize.ShloMosaic Idealize.ShloMosaic.TcCoe Idealize.ShloMosaic.ValueIdx Idealize.SL.Sem

/-- A node-feature matrix, a weight matrix, a bias vector, an edge-endpoint vector, at the ideal instance. -/
abbrev Mat := FVec Ideal S40000x128 .f32
abbrev Wt := FVec Ideal S128x128 .f32
abbrev Bias := FVec Ideal S128 .f32
abbrev Ends := (⟨S640000, .i32⟩ : BufTy).Contents (Elt Ideal)

/-- jnp's index normalisation of the source endpoints (a negative index counts from the end), as a column. -/
def wrapIdx (x1 : Ends) : (⟨S640000x1, .i32⟩ : BufTy).Contents (Elt Ideal) :=
  broadcastInDim S640000x1 ![0] bcast_S640000_S640000x1_0
    (select (cmpi .slt x1 (broadcastInDim S640000 ![] bcast_S_S640000 (constantI S_ 32 0#32)))
      (addi x1 (broadcastInDim S640000 ![] bcast_S_S640000 (constantI S_ 32 40000#32))) x1)

/-- The neighbour mean of the rows of `h` along the edges `x1 → x2`. -/
def meanAgg (h : Mat) (x1 x2 : Ends) : Mat :=
  Host.divf (F := Ideal)
    (Host.scatterAdd scatter_S40000x128_S640000x1_S640000x128_1_0_0_1
      (broadcastInDim S40000x128 ![] bcast_S_S40000x128 (constant S_ .f32 0x00000000#32))
      (broadcastInDim S640000x1 ![0] bcast_S640000_S640000x1_0 x2)
      (Host.gather gather_S40000x128_S640000x1_S640000x128_1_0_n_n_0_1_1128 h (wrapIdx x1)))
    (broadcastInDim S40000x128 ![0, 1] bcast_S40000x1_S40000x128_0_1
      (broadcastInDim S40000x1 ![0] bcast_S40000_S40000x1_0
        (maximumf
          (Host.scatterAdd scatter_S40000_S640000x1_S640000_n_0_0_1
            (broadcastInDim S40000 ![] bcast_S_S40000 (constant S_ .f32 0x00000000#32))
            (broadcastInDim S640000x1 ![0] bcast_S640000_S640000x1_0 x2)
            (broadcastInDim S640000 ![] bcast_S_S640000 (constant S_ .f32 0x3F800000#32)))
          (broadcastInDim S40000 ![] bcast_S_S40000 (constant S_ .f32 0x3F800000#32)))))

/-- The node update  h · Ws + mean · Wn + b. -/
def update (h mean : Mat) (Ws Wn : Wt) (b : Bias) : Mat :=
  addf (F := Ideal) (addf (Host.dotGeneral dot_S40000x128_S128x128_S40000x128_1_0_0_1_n_n none h Ws)
      (Host.dotGeneral dot_S40000x128_S128x128_S40000x128_1_0_0_1_n_n none mean Wn))
    (broadcastInDim S40000x128 ![0, 1] bcast_S1x128_S40000x128_0_1 (broadcastInDim S1x128 ![1] bcast_S128_S1x128_1 b))

/-- The rectifier: the entrywise maximum with zero. -/
def relu (x : Mat) : Mat :=
  maximumf (F := Ideal) x (broadcastInDim S40000x128 ![] bcast_S_S40000x128 (constant S_ .f32 0x00000000#32))

/-- The hidden features after the first layer. -/
def hidden (x0 : Mat) (x1 x2 : Ends) (x3 x4 : Wt) (x5 : Bias) : Mat :=
  relu (update x0 (meanAgg x0 x1 x2) x3 x4 x5)

/-- The network's output. -/
def G (x0 : Mat) (x1 x2 : Ends) (x3 x4 : Wt) (x5 : Bias) (x6 x7 : Wt) (x8 : Bias) : Mat :=
  update (hidden x0 x1 x2 x3 x4 x5) (meanAgg (hidden x0 x1 x2 x3 x4 x5) x1 x2) x6 x7 x8

set_option maxRecDepth 8192 in
/-- The reference's run ends holding `G` of its arguments: its composed term IS this composition. -/
theorem res_eq (m : (ℓ : Loc nD τ sig) → Buf (Elt Ideal) ℓ) (c : Dev nD) :
    Value.res_main_v50 (F := Ideal) m c = G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold Value.res_main_v50 G hidden relu update meanAgg wrapIdx
  rfl

/-- A matrix product with a 128 × 128 weight at entry (r, j): the 128-term sum over the shared axis. -/
theorem dot_apply (a : Mat) (w : Wt) (r : Fin 40000) (j : Fin 128) :
    Host.dotGeneral (F := Ideal) dot_S40000x128_S128x128_S40000x128_1_0_0_1_n_n none a w (ix2 r j)
      = ∑ k : Fin 128, a (ix2 r k) * w (ix2 k j) := by
  refine (Read.val_main_v19_apply a w (ix2 r j)).trans (Finset.sum_congr rfl fun k _ => ?_)
  have el : Read.lidx_main_v19 (ix2 r j) k = ix2 r k := funext fun d => by
    match d with | ⟨0, _⟩ => rfl | ⟨1, _⟩ => rfl
  have er : Read.ridx_main_v19 (ix2 r j) k = ix2 k j := funext fun d => by
    match d with | ⟨0, _⟩ => rfl | ⟨1, _⟩ => rfl
  rw [el, er]

/-- The bias laid out as a row and broadcast down the rows, at entry (r, j), is the bias entry j. -/
theorem bias_apply (b : Bias) (r : Fin 40000) (j : Fin 128) :
    broadcastInDim S40000x128 ![0, 1] bcast_S1x128_S40000x128_0_1 (broadcastInDim S1x128 ![1] bcast_S128_S1x128_1 b) (ix2 r j)
      = b (ix1 j) := by
  refine (Read.val_main_v23_apply (F := Ideal) b (ix2 r j)).trans ((Read.val_main_v22_apply (F := Ideal) b _).trans (congrArg b ?_))
  funext d; match d with | ⟨0, _⟩ => rfl

/-- The node update at entry (r, j). -/
theorem update_apply (h mean : Mat) (Ws Wn : Wt) (b : Bias) (r : Fin 40000) (j : Fin 128) :
    update h mean Ws Wn b (ix2 r j)
      = (∑ k : Fin 128, h (ix2 r k) * Ws (ix2 k j)) + (∑ k : Fin 128, mean (ix2 r k) * Wn (ix2 k j)) + b (ix1 j) := by
  unfold update
  rw [addf_apply, addf_apply, dot_apply, dot_apply, bias_apply]

/-- The rectifier at an entry. -/
theorem relu_apply (x : Mat) (i : S40000x128.Idx) : relu x i = max (x i) (Ideal.ofBits .f32 0x00000000#32) := by
  unfold relu
  rw [maximumf_apply]
  exact congrArg (max (x i)) (broadcastInDim_apply _ bcast_S_S40000x128 (constant (F := Ideal) S_ .f32 0x00000000#32) i ix0 (fun a => a.elim0))

end Cert.Sage

end
-- ==== Proof.KernelRun.lean ====
/-
  The idealized kernel's whole run with its RESULT named.  @main is four segments: the host operations that
  compute the first neighbour mean, the first node-update kernel, the host operations that compute the second
  neighbour mean, the second node-update kernel.  The segment-by-segment run of the frame already knows every
  unscoped buffer at the last boundary's contents `W4`; here that knowledge is kept for the result buffer
  as well as for the nine arguments: every weakly fair execution ends with the result at `W4` of its
  reference and the arguments as launched.
-/
import proofs.«143257_j20976620274055_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Whole

end
-- ==== Proof.Stretch.lean ====
/-
  The two stretches of host operations, read at the buffers the kernels stage.

  Before the first kernel, @main computes the neighbour mean of the input features (jnp's gather, two scatter-adds, a
  maximum with one and a quotient — the same operations, in the same order, as the reference's) and lays the first bias
  out as a row [1, 128]; the input features and the first layer's weights are left as launched.  Between the kernels it
  does the same to the first kernel's output array: that array is kept, its neighbour mean is computed, the second bias
  is laid out as a row, and the second layer's weights and the edge endpoints are still as launched (no operation and no
  window of the first kernel writes them).
-/
import proofs.«143257_j20976620274055_1_alg».proof.Proof.Gen.KernelIdeal.Frame
import proofs.«143257_j20976620274055_1_alg».proof.Proof.Sage
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Region 0's entry contents -/

/-- The input features are as launched. -/
theorem V1_feat (c : Dev nD) :
    (V1 m ρ c main_arg0 : S40000x128.Idx → Elt Ideal .f32) = m ((c : Thread nD τ).loc main_arg0) := by
  show StableHlo.after hostOps0 (W0 m ρ c) (Proc.devRef .tc main_arg0) = _
  after_results

/-- The first layer's self weight is as launched. -/
theorem V1_wself (c : Dev nD) :
    (V1 m ρ c main_arg3 : S128x128.Idx → Elt Ideal .f32) = m ((c : Thread nD τ).loc main_arg3) := by
  show StableHlo.after hostOps0 (W0 m ρ c) (Proc.devRef .tc main_arg3) = _
  after_results

/-- The first layer's neighbour weight is as launched. -/
theorem V1_wneigh (c : Dev nD) :
    (V1 m ρ c main_arg4 : S128x128.Idx → Elt Ideal .f32) = m ((c : Thread nD τ).loc main_arg4) := by
  show StableHlo.after hostOps0 (W0 m ρ c) (Proc.devRef .tc main_arg4) = _
  after_results

/-- The first bias as a row. -/
theorem V1_brow (c : Dev nD) :
    (V1 m ρ c main_v19 : S1x128.Idx → Elt Ideal .f32)
      = shapeCast S1x128 (m ((c : Thread nD τ).loc main_arg5)) shapeCasts_S128_S1x128 := by
  show StableHlo.after hostOps0 (W0 m ρ c) (Proc.devRef .tc main_v19) = _
  after_results
  rfl

set_option maxHeartbeats 8000000 in
/-- The first neighbour mean: of the input features along the edges. -/
theorem V1_mean (c : Dev nD) :
    (V1 m ρ c main_v18 : S40000x128.Idx → Elt Ideal .f32)
      = Cert.Sage.meanAgg (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

/-! ## What region 0 leaves of the buffers it does not stage -/

/-- A buffer that is neither an array of the first kernel's windows nor written by the first stretch is as launched
    after the first kernel: here the source endpoints, … -/
theorem W2_src (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
/-- … the destination endpoints, … -/
theorem W2_dst (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
/-- … the second layer's self weight, … -/
theorem W2_wself (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
/-- … its neighbour weight, … -/
theorem W2_wneigh (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
/-- … and its bias. -/
theorem W2_bias (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

/-! ## Region 1's entry contents -/

/-- The hidden features are what the first kernel left. -/
theorem V3_feat (c : Dev nD) :
    (V3 m ρ c main_v20 : S40000x128.Idx → Elt Ideal .f32) = W2 m ρ c (Proc.devRef .tc main_v20) := by
  show StableHlo.after hostOps1 (W2 m ρ c) (Proc.devRef .tc main_v20) = _
  after_results

/-- The second layer's self weight is as launched. -/
theorem V3_wself (c : Dev nD) :
    (V3 m ρ c main_arg6 : S128x128.Idx → Elt Ideal .f32) = m ((c : Thread nD τ).loc main_arg6) := by
  refine Eq.trans ?_ (W2_wself m ρ c)
  show StableHlo.after hostOps1 (W2 m ρ c) (Proc.devRef .tc main_arg6) = _
  after_results

/-- The second layer's neighbour weight is as launched. -/
theorem V3_wneigh (c : Dev nD) :
    (V3 m ρ c main_arg7 : S128x128.Idx → Elt Ideal .f32) = m ((c : Thread nD τ).loc main_arg7) := by
  refine Eq.trans ?_ (W2_wneigh m ρ c)
  show StableHlo.after hostOps1 (W2 m ρ c) (Proc.devRef .tc main_arg7) = _
  after_results

/-- The second bias as a row. -/
theorem V3_brow (c : Dev nD) :
    (V3 m ρ c main_v40 : S1x128.Idx → Elt Ideal .f32)
      = shapeCast S1x128 (m ((c : Thread nD τ).loc main_arg8)) shapeCasts_S128_S1x128 := by
  rw [← W2_bias m ρ c]
  show StableHlo.after hostOps1 (W2 m ρ c) (Proc.devRef .tc main_v40) = _
  after_results
  rfl

set_option maxHeartbeats 8000000 in
/-- The second neighbour mean: of the hidden features along the same edges. -/
theorem V3_mean (c : Dev nD) :
    (V3 m ρ c main_v39 : S40000x128.Idx → Elt Ideal .f32)
      = Cert.Sage.meanAgg (W2 m ρ c (Proc.devRef .tc main_v20)) (m ((c : Thread nD τ).loc main_arg1)) (m ((c : Thread nD τ).loc main_arg2)) := by
  rw [← W2_src m ρ c, ← W2_dst m ρ c]
  show StableHlo.after hostOps1 (W2 m ρ c) (Proc.devRef .tc main_v39) = _
  after_results_simp
  rfl

end Cert.KernelIdeal.Stretch

end
-- ==== Proof.Body.lean ====
/-
  What one run of a node-update kernel's body stores, read at an entry.

  The body loads a 4000-row block of the features and of the neighbour means, the two 128 × 128 weights and the bias row,
  narrows the four matrices to bf16 (the identity on extended reals), multiplies each block by its weight on the matrix
  unit into a zero accumulator, adds the two products, adds the bias row to every row and — in the first layer only —
  takes the maximum with zero.  So entry (p, q) of the stored block is
      (∑ₖ x[p,k] · Ws[k,q]) + (∑ₖ n[p,k] · Wn[k,q]) + b[0,q]        (the first layer: the maximum of that and 0).
-/
import proofs.«143257_j20976620274055_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx Idealize.SL.Sem

local notation "D" => dot_S4000x128_S128x128_S4000x128_1_0_0_1_n_n

/-- The left operand's row coordinate at an output entry is the entry's row. -/
theorem lhs_row (i : S4000x128.Idx) (u : dot_S4000x128_S128x128_S4000x128_1_0_0_1_n_n.contr.Idx) :
    (dot_S4000x128_S128x128_S4000x128_1_0_0_1_n_n.lhsIdx i u 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- The right operand's column coordinate at an output entry is the entry's column. -/
theorem rhs_col (i : S4000x128.Idx) (u : dot_S4000x128_S128x128_S4000x128_1_0_0_1_n_n.contr.Idx) :
    (dot_S4000x128_S128x128_S4000x128_1_0_0_1_n_n.rhsIdx i u 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The matrix unit's product of a 4000 × 128 block with a 128 × 128 weight into a zero accumulator, at entry (p, q):
    the 128-term sum over the shared axis. -/
theorem mm_apply {φ₁ φ₂ : FTy} (a : FVec Ideal S4000x128 φ₁) (w : FVec Ideal S128x128 φ₂) (p : Fin 4000) (q : Fin 128) :
    matmul (F := Ideal) dot_S4000x128_S128x128_S4000x128_1_0_0_1_n_n none a w (constant S4000x128 .f32 0x00000000#32) (ix2 p q)
      = ∑ k : Fin 128, a (ix2 p k) * w (ix2 k q) := by
  simp only [matmul]
  rw [Ideal.matmul_constant_zero_apply,
    ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q)
      ((ValueIdx.contrEquiv1 dot_S4000x128_S128x128_S4000x128_1_0_0_1_n_n 128 rfl rfl).symm k) = ix2 p k :=
    funext fun d => Fin.ext (by
      match d with
      | ⟨0, _⟩ => exact lhs_row _ _
      | ⟨1, _⟩ => exact (dot_S4000x128_S128x128_S4000x128_1_0_0_1_n_n.lhsIdx_val_of_single rfl _ _).trans hk)
  have er : dot_S4000x128_S128x128_S4000x128_1_0_0_1_n_n.rhsIdx (ix2 p q)
      ((ValueIdx.contrEquiv1 dot_S4000x128_S128x128_S4000x128_1_0_0_1_n_n 128 rfl rfl).symm k) = ix2 k q :=
    funext fun d => Fin.ext (by
      match d with
      | ⟨0, _⟩ => exact (dot_S4000x128_S128x128_S4000x128_1_0_0_1_n_n.rhsIdx_val_of_single rfl _ _).trans hk
      | ⟨1, _⟩ => exact rhs_col _ _)
  rw [el, er]

/-- The bias row broadcast down the block's 4000 rows, at entry (p, q), is the row's entry q. -/
theorem brow_apply (v : FVec Ideal S1x128 .f32) (p : Fin 4000) (q : Fin 128) :
    broadcastTo S4000x128 v broadcasts_S1x128_S4000x128 (ix2 p q) = v (ix2 (0 : Fin 1) q) :=
  broadcastTo_apply v broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The block the first layer's kernel stores, at entry (p, q). -/
theorem pay0_apply (x0 x1 : Vec Ideal S4000x128 .f32) (x2 x3 : Vec Ideal S128x128 .f32) (x4 : Vec Ideal S1x128 .f32)
    (p : Fin 4000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q))
          (Ideal.ofBits .f32 0x00000000#32) := by
  unfold k0_pay1
  rw [maximumf_apply, addf_apply, addf_apply, mm_apply, mm_apply, shapeCast_self, shapeCast_self, brow_apply]
  rfl

/-- The block the second layer's kernel stores, at entry (p, q). -/
theorem pay1_apply (x0 x1 : Vec Ideal S4000x128 .f32) (x2 x3 : Vec Ideal S128x128 .f32) (x4 : Vec Ideal S1x128 .f32)
    (p : Fin 4000) (q : Fin 128) :
    k1_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k1_pay1
  rw [addf_apply, addf_apply, mm_apply, mm_apply, shapeCast_self, shapeCast_self, shapeCast_self, brow_apply]
  rfl

end Cert.KernelIdeal.Body

end
-- ==== Proof.Region.lean ====
/-
  One node-update kernel's region, read as a value.  The grid has ten points; point t stages rows 4000·t … 4000·t + 3999
  of the feature array and of the neighbour-mean array, the two weights and the bias row whole, runs the body, and writes
  the 4000 × 128 block it stored back to the same rows of the output array.  Since an output row depends only on the same
  row of the two staged matrices, block t of the output IS block t of one whole-array function of the region's entry
  contents — the row update (rectified in the first layer) — and the ten blocks tile the 40000 rows: after the region
  the output array holds that function.
-/
import proofs.«143257_j20976620274055_1_alg».proof.Proof.Gen.KernelIdeal.Frame
import proofs.«143257_j20976620274055_1_alg».proof.Proof.Body

set_option maxRecDepth 16384

noncomputable section

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (r, j) of a node update whose bias is laid out as a row. -/
def rowUpdate (h mean : S40000x128.Idx → Elt Ideal .f32) (Ws Wn : S128x128.Idx → Elt Ideal .f32) (brow : S1x128.Idx → Elt Ideal .f32) :
    S40000x128.Idx → Elt Ideal .f32 :=
  fun i => (∑ k : Fin 128, h (ix2 (⟨(i 0).val, idx2_lt0 i⟩ : Fin 40000) k) * Ws (ix2 k (⟨(i 1).val, idx2_lt1 i⟩ : Fin 128)))
    + (∑ k : Fin 128, mean (ix2 (⟨(i 0).val, idx2_lt0 i⟩ : Fin 40000) k) * Wn (ix2 k (⟨(i 1).val, idx2_lt1 i⟩ : Fin 128)))
    + brow (ix2 (0 : Fin 1) (⟨(i 1).val, idx2_lt1 i⟩ : Fin 128))

/-- The entrywise maximum with zero. -/
def rect (x : S40000x128.Idx → Elt Ideal .f32) : S40000x128.Idx → Elt Ideal .f32 :=
  fun i => max (x i) (Ideal.ofBits .f32 0x00000000#32)

/-- The printed index maps, decided over the ten points: the feature, mean and output windows sit at block row t, the
    weights and the bias row at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The first layer's region -/

/-- THE BLOCK IS THE WHOLE-ARRAY FUNCTION READ THROUGH IT.  When the feature block and the mean block are rows
    T·4000 … T·4000+3999 of `h` and `mean`, and the weights and the bias row are the resident arrays, what the first layer's
    body stores at (p, q) is the rectified row update at the array entry (T·4000 + p, q). -/
theorem block0_eq (h mean : S40000x128.Idx → Elt Ideal .f32) (Ws Wn : S128x128.Idx → Elt Ideal .f32) (brow : S1x128.Idx → Elt Ideal .f32)
    (x0 x1 : Vec Ideal S4000x128 .f32) (x2 x3 : Vec Ideal S128x128 .f32) (x4 : Vec Ideal S1x128 .f32) (T : Nat)
    (h0 : ∀ (p : Fin 4000) (k : Fin 128) (r : Fin 40000), r.val = T * 4000 + p.val → x0 (ix2 p k) = h (ix2 r k))
    (h1 : ∀ (p : Fin 4000) (k : Fin 128) (r : Fin 40000), r.val = T * 4000 + p.val → x1 (ix2 p k) = mean (ix2 r k))
    (h2 : x2 = Ws) (h3 : x3 = Wn) (h4 : x4 = brow)
    (y : S4000x128.Idx) (i : S40000x128.Idx) (hi0 : (i 0).val = T * 4000 + (y 0).val) (hi1 : (i 1).val = (y 1).val) :
    k0_pay1 (F := Ideal) x0 x1 x2 x3 x4 y = rect (rowUpdate h mean Ws Wn brow) i := by
  obtain ⟨p, q, rfl⟩ : ∃ (p : Fin 4000) (q : Fin 128), y = ix2 p q := ⟨y 0, y 1, eq_ix2 y⟩
  subst h2 h3 h4
  rw [Body.pay0_apply]
  unfold rect rowUpdate
  have eq : (⟨(i 1).val, idx2_lt1 i⟩ : Fin 128) = q := Fin.ext hi1
  rw [eq]
  refine congrArg (fun z => max z _) (congrArg (· + _) (congrArg₂ (· + ·) ?_ ?_))
  · exact Finset.sum_congr rfl fun k _ => by rw [h0 p k ⟨(i 0).val, idx2_lt0 i⟩ hi0]
  · exact Finset.sum_congr rfl fun k _ => by rw [h1 p k ⟨(i 0).val, idx2_lt0 i⟩ hi0]

/-- WHAT POINT `t` OF THE FIRST KERNEL WRITES BACK is block `t` of the rectified row update of the arrays as the
    region finds them: the feature and mean windows move with the output's (block row t), the weights and the bias
    row stay at block (0, 0). -/
theorem flushed0_eq (c : Dev nD) (t : Fin cfg0.N) :
    (dat0 V c).flushed 5 t = ((cfg0.win 5).blk t).view.read (Elt Ideal)
      (rect (rowUpdate (V c main_arg0) (V c main_v18) (V c main_arg3) (V c main_arg4) (V c main_v19))) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51⟩ := idx_facts0 t
  funext y
  show k0_pay1 (iblk0 V c 0 t) (iblk0 V c 1 t) (iblk0 V c 2 t) (iblk0 V c 3 t) (iblk0 V c 4 t) y
    = rect (rowUpdate (V c main_arg0) (V c main_v18) (V c main_arg3) (V c main_arg4) (V c main_v19)) (((cfg0.win 5).blk t).view.emb y)
  refine block0_eq (V c main_arg0) (V c main_v18) (V c main_arg3) (V c main_arg4) (V c main_v19)
    (iblk0 V c 0 t) (iblk0 V c 1 t) (iblk0 V c 2 t) (iblk0 V c 3 t) (iblk0 V c 4 t) t.val ?_ ?_ ?_ ?_ ?_ y _ ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 4000 + 1 * p.val = r.val; omega
    | ⟨1, _⟩ => show win0_0.index t (1 : Fin 2) * 128 + 1 * k.val = k.val; omega
  · intro p k r hr
    show V c main_v18 (((cfg0.win 1).blk t).view.emb (ix2 p k)) = V c main_v18 (ix2 r k)
    refine congrArg (V c main_v18) (funext fun a => Fin.ext ?_)
    match a with
    | ⟨0, _⟩ => show win0_1.index t (0 : Fin 2) * 4000 + 1 * p.val = r.val; omega
    | ⟨1, _⟩ => show win0_1.index t (1 : Fin 2) * 128 + 1 * k.val = k.val; omega
  · funext z
    show V c main_arg3 (((cfg0.win 2).blk t).view.emb z) = V c main_arg3 z
    refine congrArg (V c main_arg3) (funext fun a => Fin.ext ?_)
    match a with
    | ⟨0, _⟩ => show win0_2.index t (0 : Fin 2) * 128 + 1 * (z 0).val = (z 0).val; omega
    | ⟨1, _⟩ => show win0_2.index t (1 : Fin 2) * 128 + 1 * (z 1).val = (z 1).val; omega
  · funext z
    show V c main_arg4 (((cfg0.win 3).blk t).view.emb z) = V c main_arg4 z
    refine congrArg (V c main_arg4) (funext fun a => Fin.ext ?_)
    match a with
    | ⟨0, _⟩ => show win0_3.index t (0 : Fin 2) * 128 + 1 * (z 0).val = (z 0).val; omega
    | ⟨1, _⟩ => show win0_3.index t (1 : Fin 2) * 128 + 1 * (z 1).val = (z 1).val; omega
  · funext z
    show V c main_v19 (((cfg0.win 4).blk t).view.emb z) = V c main_v19 z
    refine congrArg (V c main_v19) (funext fun a => Fin.ext ?_)
    match a with
    | ⟨0, _⟩ => show win0_4.index t (0 : Fin 2) * 1 + 1 * (z 0).val = (z 0).val; omega
    | ⟨1, _⟩ => show win0_4.index t (1 : Fin 2) * 128 + 1 * (z 1).val = (z 1).val; omega
  · show win0_5.index t (0 : Fin 2) * 4000 + 1 * (y 0).val = t.val * 4000 + (y 0).val; omega
  · show win0_5.index t (1 : Fin 2) * 128 + 1 * (y 1).val = (y 1).val; omega

/-- An index of the output array is in point `t`'s block iff each coordinate is in the block's range on its axis. -/
theorem mem_blk0 (t : Fin cfg0.N) (i : S40000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v20).slice (win0_5.rect t)).set ↔ _
  rw [View.set_slice_whole, Rect.mem_set_unit]
  exact Iff.rfl

/-- The ten 4000-row blocks tile the 40000 rows: row r is in the block of point r / 4000. -/
theorem cover0 (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  let t : Fin cfg0.N := ⟨(i 0).val / 4000, by show _ < grid0.N; rw [N_0]; omega⟩
  obtain ⟨-, -, -, -, -, -, -, -, -, -, e50, e51⟩ := idx_facts0 t
  have ht : t.val = (i 0).val / 4000 := rfl
  refine ⟨t, flush0_5 t, ?_⟩
  rw [mem_blk0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE FIRST KERNEL'S OUTPUT ARRAY after its region: the rectified row update of the arrays the region was entered with. -/
theorem final0 (c : Dev nD) :
    (dat0 V c).arrAt 5 cfg0.N = rect (rowUpdate (V c main_arg0) (V c main_v18) (V c main_arg3) (V c main_arg4) (V c main_v19)) :=
  (dat0 V c).arrAt_eq_of_cover 5 _ (fun t _ => flushed0_eq V c t) cover0

/-! ## The second layer's region -/

/-- The same for the second kernel's windows. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- THE BLOCK IS THE WHOLE-ARRAY FUNCTION READ THROUGH IT.  When the feature block and the mean block are rows
    T·4000 … T·4000+3999 of `h` and `mean`, and the weights and the bias row are the resident arrays, what the second layer's
    body stores at (p, q) is the row update at the array entry (T·4000 + p, q). -/
theorem block1_eq (h mean : S40000x128.Idx → Elt Ideal .f32) (Ws Wn : S128x128.Idx → Elt Ideal .f32) (brow : S1x128.Idx → Elt Ideal .f32)
    (x0 x1 : Vec Ideal S4000x128 .f32) (x2 x3 : Vec Ideal S128x128 .f32) (x4 : Vec Ideal S1x128 .f32) (T : Nat)
    (h0 : ∀ (p : Fin 4000) (k : Fin 128) (r : Fin 40000), r.val = T * 4000 + p.val → x0 (ix2 p k) = h (ix2 r k))
    (h1 : ∀ (p : Fin 4000) (k : Fin 128) (r : Fin 40000), r.val = T * 4000 + p.val → x1 (ix2 p k) = mean (ix2 r k))
    (h2 : x2 = Ws) (h3 : x3 = Wn) (h4 : x4 = brow)
    (y : S4000x128.Idx) (i : S40000x128.Idx) (hi0 : (i 0).val = T * 4000 + (y 0).val) (hi1 : (i 1).val = (y 1).val) :
    k1_pay1 (F := Ideal) x0 x1 x2 x3 x4 y = (rowUpdate h mean Ws Wn brow) i := by
  obtain ⟨p, q, rfl⟩ : ∃ (p : Fin 4000) (q : Fin 128), y = ix2 p q := ⟨y 0, y 1, eq_ix2 y⟩
  subst h2 h3 h4
  rw [Body.pay1_apply]
  unfold rowUpdate
  have eq : (⟨(i 1).val, idx2_lt1 i⟩ : Fin 128) = q := Fin.ext hi1
  rw [eq]
  refine congrArg (· + _) (congrArg₂ (· + ·) ?_ ?_)
  · exact Finset.sum_congr rfl fun k _ => by rw [h0 p k ⟨(i 0).val, idx2_lt0 i⟩ hi0]
  · exact Finset.sum_congr rfl fun k _ => by rw [h1 p k ⟨(i 0).val, idx2_lt0 i⟩ hi0]

/-- WHAT POINT `t` OF THE SECOND KERNEL WRITES BACK is block `t` of the row update of the arrays as the
    region finds them: the feature and mean windows move with the output's (block row t), the weights and the bias
    row stay at block (0, 0). -/
theorem flushed1_eq (c : Dev nD) (t : Fin cfg1.N) :
    (dat1 V c).flushed 5 t = ((cfg1.win 5).blk t).view.read (Elt Ideal)
      ((rowUpdate (V c main_v20) (V c main_v39) (V c main_arg6) (V c main_arg7) (V c main_v40))) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51⟩ := idx_facts1 t
  funext y
  show k1_pay1 (iblk1 V c 0 t) (iblk1 V c 1 t) (iblk1 V c 2 t) (iblk1 V c 3 t) (iblk1 V c 4 t) y
    = (rowUpdate (V c main_v20) (V c main_v39) (V c main_arg6) (V c main_arg7) (V c main_v40)) (((cfg1.win 5).blk t).view.emb y)
  refine block1_eq (V c main_v20) (V c main_v39) (V c main_arg6) (V c main_arg7) (V c main_v40)
    (iblk1 V c 0 t) (iblk1 V c 1 t) (iblk1 V c 2 t) (iblk1 V c 3 t) (iblk1 V c 4 t) t.val ?_ ?_ ?_ ?_ ?_ y _ ?_ ?_
  · intro p k r hr
    show V c main_v20 (((cfg1.win 0).blk t).view.emb (ix2 p k)) = V c main_v20 (ix2 r k)
    refine congrArg (V c main_v20) (funext fun a => Fin.ext ?_)
    match a with
    | ⟨0, _⟩ => show win1_0.index t (0 : Fin 2) * 4000 + 1 * p.val = r.val; omega
    | ⟨1, _⟩ => show win1_0.index t (1 : Fin 2) * 128 + 1 * k.val = k.val; omega
  · intro p k r hr
    show V c main_v39 (((cfg1.win 1).blk t).view.emb (ix2 p k)) = V c main_v39 (ix2 r k)
    refine congrArg (V c main_v39) (funext fun a => Fin.ext ?_)
    match a with
    | ⟨0, _⟩ => show win1_1.index t (0 : Fin 2) * 4000 + 1 * p.val = r.val; omega
    | ⟨1, _⟩ => show win1_1.index t (1 : Fin 2) * 128 + 1 * k.val = k.val; omega
  · funext z
    show V c main_arg6 (((cfg1.win 2).blk t).view.emb z) = V c main_arg6 z
    refine congrArg (V c main_arg6) (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  · funext z
    show V c main_arg7 (((cfg1.win 3).blk t).view.emb z) = V c main_arg7 z
    refine congrArg (V c main_arg7) (funext fun a => Fin.ext ?_)
    match a with
    | ⟨0, _⟩ => show win1_3.index t (0 : Fin 2) * 128 + 1 * (z 0).val = (z 0).val; omega
    | ⟨1, _⟩ => show win1_3.index t (1 : Fin 2) * 128 + 1 * (z 1).val = (z 1).val; omega
  · funext z
    show V c main_v40 (((cfg1.win 4).blk t).view.emb z) = V c main_v40 z
    refine congrArg (V c main_v40) (funext fun a => Fin.ext ?_)
    match a with
    | ⟨0, _⟩ => show win1_4.index t (0 : Fin 2) * 1 + 1 * (z 0).val = (z 0).val; omega
    | ⟨1, _⟩ => show win1_4.index t (1 : Fin 2) * 128 + 1 * (z 1).val = (z 1).val; omega
  · show win1_5.index t (0 : Fin 2) * 4000 + 1 * (y 0).val = t.val * 4000 + (y 0).val; omega
  · show win1_5.index t (1 : Fin 2) * 128 + 1 * (y 1).val = (y 1).val; omega

/-- An index of the output array is in point `t`'s block iff each coordinate is in the block's range on its axis. -/
theorem mem_blk1 (t : Fin cfg1.N) (i : S40000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v41).slice (win1_5.rect t)).set ↔ _
  rw [View.set_slice_whole, Rect.mem_set_unit]
  exact Iff.rfl

/-- The ten 4000-row blocks tile the 40000 rows: row r is in the block of point r / 4000. -/
theorem cover1 (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  let t : Fin cfg1.N := ⟨(i 0).val / 4000, by show _ < grid1.N; rw [N_1]; omega⟩
  obtain ⟨-, -, -, -, -, -, -, -, -, -, e50, e51⟩ := idx_facts1 t
  have ht : t.val = (i 0).val / 4000 := rfl
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE SECOND KERNEL'S OUTPUT ARRAY after its region: the row update of the arrays the region was entered with. -/
theorem final1 (c : Dev nD) :
    (dat1 V c).arrAt 5 cfg1.N = (rowUpdate (V c main_v20) (V c main_v39) (V c main_arg6) (V c main_arg7) (V c main_v40)) :=
  (dat1 V c).arrAt_eq_of_cover 5 _ (fun t _ => flushed1_eq V c t) cover1

end Cert.KernelIdeal.Region

end
-- ==== Proof.Bridge.lean ====
/-
  The kernels' row update is the reference's node update.  The kernels add the bias as a ROW [1, 128] (the bias vector
  reshaped, entry (0, j) = b[j]) broadcast down their block; the reference adds the bias vector broadcast to every row.
  Entry by entry both are  (∑ₖ h[r,k]·Ws[k,j]) + (∑ₖ mean[r,k]·Wn[k,j]) + b[j]  — the same two sums in the same order
  and the same bias entry, so no law of arithmetic is used — and the kernels' maximum with the zero word is the
  reference's rectifier.
-/
import proofs.«143257_j20976620274055_1_alg».proof.Proof.Region
import proofs.«143257_j20976620274055_1_alg».proof.Proof.Sage

noncomputable section

namespace Cert.KernelIdeal.Bridge

open Cert.KernelIdeal Cert.KernelIdeal.Gen
open Idealize.ShloMosaic Idealize.ShloMosaic.TcCoe Idealize.ShloMosaic.ValueIdx Idealize.SL.Sem

/-- The bias vector reshaped to a row, at (0, j), is the vector's entry j. -/
theorem brow_entry (b : S128.Idx → Elt Ideal .f32) (j : Fin 128) :
    shapeCast S1x128 b shapeCasts_S128_S1x128 (ix2 (0 : Fin 1) j) = b (ix1 j) := by
  refine (shapeCast_addUnit_apply ![128] b shapeCasts_S128_S1x128 (ix2 (0 : Fin 1) j)).trans (congrArg b ?_)
  funext a; match a with | ⟨0, _⟩ => rfl

/-- The row update with the reshaped bias is the reference's node update. -/
theorem rowUpdate_eq (h mean : Cert.Sage.Mat) (Ws Wn : Cert.Sage.Wt) (b : Cert.Sage.Bias) :
    Region.rowUpdate h mean Ws Wn (shapeCast S1x128 b shapeCasts_S128_S1x128) = Cert.Sage.update h mean Ws Wn b := by
  funext i
  obtain ⟨r, j, rfl⟩ : ∃ (r : Fin 40000) (j : Fin 128), i = ix2 r j := ⟨i 0, i 1, eq_ix2 i⟩
  rw [Cert.Sage.update_apply]
  show (∑ k : Fin 128, h (ix2 r k) * Ws (ix2 k j)) + (∑ k : Fin 128, mean (ix2 r k) * Wn (ix2 k j))
      + shapeCast S1x128 b shapeCasts_S128_S1x128 (ix2 (0 : Fin 1) j) = _
  rw [brow_entry]

/-- The maximum with the zero word is the reference's rectifier. -/
theorem rect_eq (x : Cert.Sage.Mat) : Region.rect x = Cert.Sage.relu x :=
  funext fun i => (Cert.Sage.relu_apply x i).symm

end Cert.KernelIdeal.Bridge

end
-- ==== Proof.KernelValue.lean ====
/-
  The idealized kernel's result.  Walking @main's four segments backwards from the result buffer: the second kernel's
  output array is the row update of its region's entry contents; those are the first kernel's output array (the hidden
  features H), H's neighbour mean, and the second layer's weights and bias row; H in turn is the rectified row update
  of the input features, their neighbour mean and the first layer's weights and bias row.  With the row update
  identified with the reference's node update this is the network  G = update H (meanAgg H) W₆ W₇ b₈,
  H = relu (update x (meanAgg x) W₃ W₄ b₅)  of the launch contents: `run`.
-/
import proofs.«143257_j20976620274055_1_alg».proof.Proof.KernelRun
import proofs.«143257_j20976620274055_1_alg».proof.Proof.Stretch
import proofs.«143257_j20976620274055_1_alg».proof.Proof.Bridge

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first kernel's output array is the hidden features of the launch contents. -/
theorem hidden_eq (c : Dev nD) :
    (W2 m ρ c (Proc.devRef .tc main_v20) : S40000x128.Idx → Elt Ideal .f32)
      = Cert.Sage.hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W2_arr m ρ c 5).trans ?_
  rw [Region.final0 (V1 m ρ) c, Stretch.V1_feat, Stretch.V1_mean, Stretch.V1_wself, Stretch.V1_wneigh, Stretch.V1_brow,
    Bridge.rowUpdate_eq, Bridge.rect_eq]
  rfl

/-- The result buffer's last contents are the network's output of the launch contents. -/
theorem result_eq (c : Dev nD) :
    (W4 m ρ c (Proc.devRef .tc main_v41) : S40000x128.Idx → Elt Ideal .f32)
      = Cert.Sage.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_arr m ρ c 5).trans ?_
  rw [Region.final1 (V3 m ρ) c, Stretch.V3_feat, Stretch.V3_mean, Stretch.V3_wself, Stretch.V3_wneigh, Stretch.V3_brow,
    hidden_eq, Bridge.rowUpdate_eq]
  rfl

/-- Every weakly fair execution of the idealized kernel terminates with the result at the network's output of the
    launch contents and the arguments unchanged. -/
theorem run : θ_run defs (onTc (τ := τ) (main (F := Ideal))) ⟨m, fun _ => 0, ρ⟩ (fun r => ∀ c : Dev nD,
      r.2.mem ((c.tc : Thread nD τ).loc main_v41)
        = Cert.Sage.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_result m ρ)

end Cert.KernelIdeal.Whole

end
-- ==== Proof.lean ====
/-
  A two-layer GraphSAGE network with mean aggregation on a graph of 40000 nodes (128 features each) and 640000 edges:
      H = relu (x · W₃ + mean(x) · W₄ + b₅),      out = H · W₆ + mean(H) · W₇ + b₈,
  where mean(h) is, row by row, the sum of the rows of h at the sources of the edges arriving at the node, divided by
  max(the number of those edges, 1).

  The kernel program computes each mean with jnp's own gather and scatter-adds — the same host operations, in the same
  order, as the reference — and each node update in a kernel over ten blocks of 4000 rows: two products on the matrix
  unit into zero accumulators (the operands narrowed to bf16, the identity on extended reals), their sum, the bias row
  added to every row, and in the first layer the maximum with zero.  The reference computes each node update with two
  whole dot products, the bias broadcast to every row, and the rectifier.

  Over the extended reals the two agree entry by entry with no law of arithmetic beyond reading both sides at an
  entry: a row of a block product is the same 128-term sum as the same row of the whole product, the two sums are
  added in the same order, and the same bias entry is added last.  So finiteness of the inputs is never used, and the
  edge endpoints may be any words: both programs pass them through the same index normalisation, gather and
  scatter-add.

  The three frames are the generated ones (the reference's is its generated run with the result dropped); the
  idealization rewrote nothing, so `preserves` is trivial; `algebraic` puts the kernel's run (Proof/KernelValue.lean)
  beside the reference's run, both ending at the one function `Cert.Sage.G` of the arguments.
-/
import proofs.«143257_j20976620274055_1_alg».proof.Defs
import proofs.«143257_j20976620274055_1_alg».proof.Proof.Gen.Kernel
import proofs.«143257_j20976620274055_1_alg».proof.Proof.Gen.Kernel.Skeleton
import proofs.«143257_j20976620274055_1_alg».proof.Proof.Gen.Kernel.Launch
import proofs.«143257_j20976620274055_1_alg».proof.Proof.Gen.Kernel.Points
import proofs.«143257_j20976620274055_1_alg».proof.Proof.Gen.Kernel.Frame
import proofs.«143257_j20976620274055_1_alg».proof.Proof.Gen.KernelIdeal
import proofs.«143257_j20976620274055_1_alg».proof.Proof.Gen.KernelIdeal.Skeleton
import proofs.«143257_j20976620274055_1_alg».proof.Proof.Gen.KernelIdeal.Launch
import proofs.«143257_j20976620274055_1_alg».proof.Proof.Gen.KernelIdeal.Points
import proofs.«143257_j20976620274055_1_alg».proof.Proof.Gen.KernelIdeal.Frame
import proofs.«143257_j20976620274055_1_alg».proof.Proof.Gen.ReferenceIdeal
import proofs.«143257_j20976620274055_1_alg».proof.Proof.Gen.Pre_finite_inputs
import proofs.«143257_j20976620274055_1_alg».proof.Proof.Gen.ReferenceIdeal.Run
import proofs.«143257_j20976620274055_1_alg».proof.Proof.Gen.ReferenceIdeal.Read
import proofs.«143257_j20976620274055_1_alg».proof.Proof.Sage
import proofs.«143257_j20976620274055_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end holding the network's output `Cert.Sage.G` of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.Sage.res_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
